-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x4096 : Shape := ⟨3, ![16, 2048, 4096]⟩
abbrev S_ : Shape := ⟨0, ![]⟩

class Facts : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel

variable [Facts]

def fn {F : FTy → Type} [FloatOps F] (main_arg0 : FVec F S16x2048x4096 .f32) : IVec S_ 1 :=
  let main_v0 : FVec F S16x2048x4096 .f32 := Host.absf main_arg0
  let main_cst : FVec F S_ .f32 := constant S_ .f32 0x7F800000#32
  let main_v1 : FVec F S16x2048x4096 .f32 := broadcastInDim S16x2048x4096 ![] bcast_S_S16x2048x4096 main_cst
  let main_v2 : IVec S16x2048x4096 1 := cmpf .olt main_v0 main_v1
  let main_c : IVec S_ 1 := constantI S_ 1 1#1
  let main_v3 : IVec S_ 1 := (fun x v => Host.reduce IntOp.andi x v reducesTo_S16x2048x4096_S_d0_1_2 h_S_) main_v2 main_c
  main_v3
-- ==== Kernel.lean ====
abbrev S16x2048x4096 : Shape := ⟨3, ![16, 2048, 4096]⟩
abbrev S32768x4096 : Shape := ⟨2, ![32768, 4096]⟩
abbrev S256x4096 : Shape := ⟨2, ![256, 4096]⟩

abbrev nBuf : Space → Nat
  | .hbm => 4
  | .vmem => 4
  | .smem => 0
  | _ => 0

abbrev bufTy : (tb : Table) → Fin (tcTables nBuf tb) → BufTy
  | .hbm, ⟨0, _⟩ => ⟨S16x2048x4096, .f32⟩
  | .hbm, ⟨1, _⟩ => ⟨S32768x4096, .f32⟩
  | .hbm, ⟨2, _⟩ => ⟨S32768x4096, .f32⟩
  | .hbm, ⟨3, _⟩ => ⟨S16x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x2048x4096_S32768x4096 : S16x2048x4096.ShapeCasts S32768x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S32768x4096_S16x2048x4096 : S32768x4096.ShapeCasts S16x2048x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .f32 = 32 ∨ (Rect.block (s := S32768x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16x2048x4096 : Shape := ⟨3, ![16, 2048, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S16x2048x4096, .f32⟩
  | .hbm, ⟨3, _⟩ => ⟨S_, .f32⟩
  | .hbm, ⟨4, _⟩ => ⟨S16x2048x4096, .f32⟩
  | .hbm, ⟨5, _⟩ => ⟨S16x2048x4096, .f32⟩
  | .hbm, ⟨6, _⟩ => ⟨S_, .f32⟩
  | .hbm, ⟨7, _⟩ => ⟨S16x2048x4096, .f32⟩
  | .hbm, ⟨8, _⟩ => ⟨S16x2048x4096, .f32⟩
  | .hbm, ⟨9, _⟩ => ⟨S16x2048x4096, .f32⟩
  | .hbm, ⟨10, _⟩ => ⟨S16x2048x4096, .f32⟩
  | .hbm, ⟨11, _⟩ => ⟨S16x2048x4096, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S16x2048x4096 : S_.BroadcastsInDim S16x2048x4096 (![] : Fin 0 → Fin S16x2048x4096.rank)

variable [Facts₀]

class Facts : Prop extends Facts₀ where

variable [Facts]
-- ==== Proof.Activation.lean ====
/-
  The pointwise function both programs compute, and the host's spelling of the sigmoid.

  Write σ(a) = 1 / (1 + e^(-a)) for the logistic function on the extended reals (σ(-∞) = 0, σ(+∞) = 1).
  Both programs map every entry a of the input to

      act a = tanh (a · σ(a)) + σ(a).

  The kernel applies σ as one operation; the reference spells it out as a negation, an exponential, the sum with the
  constant 1 and the quotient of the constant 1 by that sum. On the extended reals the one operation IS that
  expression, so the two spellings agree at every entry, infinite ones included: no finiteness is used.
-/
import Idealize.ShloMosaic.PureOps.Ideal
import Idealize.ShloMosaic.Lib.IdealHost

noncomputable section

namespace Cert.Activation

open Idealize.ShloMosaic

/-- The entrywise function: `tanh (a · σ a) + σ a`, in the kernel's operations, at any float instance. -/
def act {F : FTy → Type} [FloatOps F] (a : F .f32) : F .f32 :=
  FloatOps.addf (FloatOps.tanh (FloatOps.mulf a (FloatOps.logistic a))) (FloatOps.logistic a)

/-- The reference's sigmoid of one entry: `1 / (1 + e^(-a))` in the host's operations, each `1` the float word of 1.0. -/
def hostSigmoid {F : FTy → Type} [FloatOps F] (a : F .f32) : F .f32 :=
  FloatOps.hostDivf (FloatOps.ofBits .f32 0x3F800000#32)
    (FloatOps.addf (FloatOps.ofBits .f32 0x3F800000#32) (FloatOps.hostUnary .exp (FloatOps.hostNegf a)))

/-- On the extended reals the float word of 1.0 is the number 1, and then the spelled-out quotient is the logistic
    function by its definition. -/
theorem hostSigmoid_eq (a : Ideal .f32) : hostSigmoid (F := Ideal) a = FloatOps.logistic a := by
  unfold hostSigmoid
  rw [Ideal.ofBits_def, Ideal.ofBits_one_f32]
  rfl

/-- The reference's entrywise expression — `tanh` of the product with the spelled-out sigmoid, plus that sigmoid — is
    `act` on the extended reals: the host's `tanh` and the kernel's are one function there. -/
theorem hostAct_eq (a : Ideal .f32) :
    FloatOps.addf (FloatOps.hostUnary .tanh (FloatOps.mulf a (hostSigmoid (F := Ideal) a))) (hostSigmoid (F := Ideal) a)
      = act (F := Ideal) a := by
  rw [hostSigmoid_eq]
  rfl

end Cert.Activation

end
-- ==== Proof.RegionValue.lean ====
/-
  What the kernel program leaves in its result, as one function of its argument.

  The program reshapes x : [16, 2048, 4096] to X : [32768, 4096] (row r of X is row r mod 2048 of slab r / 2048 of x, the
  same entries in the same row-major order), copies X into the buffer the call will write, runs the call, and reshapes
  the call's [32768, 4096] result back to [16, 2048, 4096].

  The call walks a grid of 2 × 64 = 128 points. Point (c, j) — the t-th in order, t = 64·c + j — reads block t of X,
  rows 256·t … 256·t + 255 and all 4096 columns, applies `act` to every entry, and writes the outcome to block t of the
  result. Input and output blocks sit at the same place, the 128 blocks are disjoint and together are all 32768 rows, so
  after the call the result array is `act` of X entry by entry. An entrywise map commutes with a reshape, and reshaping
  there and back is the identity: the program's result is `act` of x, entry by entry.

  Everything here holds at any float instance; the extended reals enter only where the reference is compared.
-/
import proofs.«158531_j58866821759535_2_alg».proof.Proof.Gen.KernelIdeal.Frame
import proofs.«158531_j58866821759535_2_alg».proof.Proof.Activation
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- `act` applied to every entry of an array of any shape. -/
abbrev mapAct {s : Shape} (X : s.Idx → Elt F .f32) : s.Idx → Elt F .f32 := fun i => Cert.Activation.act (X i)

/-! ## One grid point -/

/-- The body loads and stores its whole [256, 4096] buffers: the offsets of both rectangles are zero. -/
theorem zero_offsets : (![0, 0] : Fin 2 → Nat) = fun _ => 0 := funext fun a => by fin_cases a <;> rfl

/-- The value the body stores is `act` of the loaded block, entry by entry: sigmoid, product with the input, tanh,
    sum with the sigmoid (the leading cast is to the block's own shape and changes nothing). -/
theorem payload_eq (x0 : Vec F S256x4096 .f32) : k0_pay1 x0 = mapAct x0 := by
  unfold k0_pay1
  simp only [shapeCast_self]
  rfl

/-- At every grid point the input block and the output block have the same block indices, -/
theorem index_same : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- and they are (t, 0): the t-th point, (t / 64, t mod 64), has row-block index 64 · (t / 64) + t mod 64 = t. -/
theorem index_rows : ∀ t : Fin cfg0.N, win0_1.index t (0 : Fin 2) = t.val ∧ win0_1.index t (1 : Fin 2) = 0 :=
  (by decide +kernel : ∀ t : Fin grid0.N, _)

/-- What point `t` writes back is block `t` of `act` of the array the call reads: entry (p, q) of the stored block is
    `act` of entry (p, q) of the loaded block, and both blocks start at row 256 · t, column 0. -/
theorem flushed_eq (c : Dev nD) (t : Fin cfg0.N) :
    (dats m 0 c).flushed 1 t = ((cfg0.win 1).blk t).view.read (Elt F) (mapAct (V m c main_v0)) := by
  show (cfg0.win 1).cut (grid0.coords t) ((dats m 0 c).after 1 t) = _
  rw [after0_1]
  unfold out0_1
  rw [View.canon_unit_zero zero_offsets]
  simp only [View.ld_unit_zero (S := S256x4096) zero_offsets]
  rw [payload_eq]
  obtain ⟨e0, e1⟩ := index_same t
  funext j
  show Cert.Activation.act (V m c main_v0 (((cfg0.win 0).blk t).view.emb j))
    = Cert.Activation.act (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-! ## The 128 blocks are the whole array -/

/-- An index of the [32768, 4096] array is in point `t`'s output block iff each coordinate is in the block's range. -/
theorem mem_block (t : Fin cfg0.N) (i : S32768x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Row r lies in the block of point r / 256 (and 32768 / 256 = 128 is the number of points); every column does. -/
theorem covered (i : S32768x4096.Idx) :
    ∃ t : Fin cfg0.N, (cfg0.win 1).flush t = true ∧ i ∈ ((cfg0.win 1).blk t).view.set := by
  have hi0 : (i 0).val < 32768 := (i 0).isLt
  have hi1 : (i 1).val < 4096 := (i 1).isLt
  have hN : (i 0).val / 256 < cfg0.N := by
    show (i 0).val / 256 < grid0.N
    rw [N_0]; omega
  obtain ⟨q0, q1⟩ := index_rows ⟨(i 0).val / 256, hN⟩
  refine ⟨⟨(i 0).val / 256, hN⟩, flush0_1 _, ?_⟩
  rw [mem_block]
  intro a
  match a with
  | ⟨0, _⟩ =>
    show win0_1.index ⟨(i 0).val / 256, hN⟩ (0 : Fin 2) * 256 ≤ (i 0).val ∧ (i 0).val < win0_1.index ⟨(i 0).val / 256, hN⟩ (0 : Fin 2) * 256 + 256
    rw [q0]; show (i 0).val / 256 * 256 ≤ (i 0).val ∧ (i 0).val < (i 0).val / 256 * 256 + 256; omega
  | ⟨1, _⟩ =>
    show win0_1.index ⟨(i 0).val / 256, hN⟩ (1 : Fin 2) * 4096 ≤ (i 1).val ∧ (i 1).val < win0_1.index ⟨(i 0).val / 256, hN⟩ (1 : Fin 2) * 4096 + 4096
    rw [q1]; omega

/-- After the call its result array is `act` of the array it read, entry by entry. -/
theorem region_final (c : Dev nD) : (dats m 0 c).arrAt 1 cfg0.N = mapAct (V m c main_v0) :=
  (dats m 0 c).arrAt_eq_of_cover 1 (mapAct (V m c main_v0)) (fun t _ => flushed_eq m c t) covered

/-! ## The reshapes around the call -/

/-- The array the call reads is the argument reshaped to [32768, 4096]. -/
theorem entry_rows (c : Dev nD) :
    (V m c main_v0 : S32768x4096.Idx → Elt F .f32)
      = shapeCast S32768x4096 (m ((c : Thread nD τ).loc main_arg0)) shapeCasts_S16x2048x4096_S32768x4096 := by
  show StableHlo.after hostOps0 (fun b => m (c, b)) (Proc.devRef .tc main_v0) = _
  after_results
  rfl

/-- The program's result is the call's result array reshaped to [16, 2048, 4096]. -/
theorem tail_result (c : Dev nD) :
    (Pipeline.afterTail₀ cfgs (dats m) 0 (V0 m) [hostOps1] c main_v2 : S16x2048x4096.Idx → Elt F .f32)
      = shapeCast S16x2048x4096 ((dats m 0 c).arrAt 1 cfg0.N) shapeCasts_S32768x4096_S16x2048x4096 := by
  unfold Pipeline.afterTail₀
  show StableHlo.after hostOps1 _ (Proc.devRef .tc main_v2) = _
  after_results
  exact congrArg (fun A : S32768x4096.Idx → Elt F .f32 => shapeCast S16x2048x4096 A shapeCasts_S32768x4096_S16x2048x4096)
    (Pipeline.withArrays_arr spec0 launch0.win.arr_inj c (V0 m c) (fun w => (dats m 0 c).arrAt w cfg0.N) 1)

/-- The program's result is `act` of its argument, entry by entry: `act` is applied between a reshape and the
    reshape back, an entrywise map commutes with both, and the two reshapes cancel. -/
theorem result_eq (c : Dev nD) :
    (Pipeline.afterTail₀ cfgs (dats m) 0 (V0 m) [hostOps1] c main_v2 : S16x2048x4096.Idx → Elt F .f32)
      = mapAct (m ((c : Thread nD τ).loc main_arg0)) := by
  rw [tail_result, region_final, entry_rows]
  exact shapeCast_shapeCast (mapAct (m ((c : Thread nD τ).loc main_arg0)))
    shapeCasts_S16x2048x4096_S32768x4096 shapeCasts_S32768x4096_S16x2048x4096

/-! ## The run -/

/-- Every weakly fair execution of the program terminates, with its result at `act` of the argument entry by entry
    and the argument unchanged. -/
theorem run : θ_run defs (onTc (τ := τ) (main (F := F))) ⟨m, fun _ => 0, ρ⟩ fun r => ∀ c : Dev nD,
      r.2.mem ((c : Thread nD τ).loc main_v2) = mapAct (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.RegionValue

end
-- ==== Proof.RefValue.lean ====
/-
  The reference's result, entry by entry.

  The reference is a straight line of entrywise host operations on the whole [16, 2048, 4096] array: negate,
  exponential, add the broadcast constant 1, divide the broadcast constant 1 by that sum (the sigmoid s), multiply the
  input by s, take tanh, add s. Read at one index i every stage depends on the input at i only, and the composite is
  `act (x i)` = tanh (x i · σ(x i)) + σ(x i).
-/
import proofs.«158531_j58866821759535_2_alg».proof.Proof.Gen.ReferenceIdeal.Read
import proofs.«158531_j58866821759535_2_alg».proof.Proof.Activation

noncomputable section

namespace Cert.ReferenceIdeal.RefValue

open Cert.ReferenceIdeal Cert.ReferenceIdeal.Gen Cert.ReferenceIdeal.Read Idealize.ShloMosaic

/-- The last stage of the reference, read at an index: each stage's entry from its operands' entries, the two
    broadcast scalars from the constant's single entry; what is left is the host's spelling of `act` at `x i`. -/
theorem result_eq (x : (⟨S16x2048x4096, .f32⟩ : BufTy).Contents (Elt Ideal)) :
    val_main_v8 (F := Ideal) x = fun i => Cert.Activation.act (F := Ideal) (x i) := by
  funext i
  rw [val_main_v8_apply, val_main_v7_apply, val_main_v6_apply, val_main_v5_apply, val_main_v4_apply,
    val_main_cst_0_apply, val_main_v3_apply, val_main_v2_apply, val_main_cst_apply, val_main_v1_apply,
    val_main_v0_apply]
  exact Cert.Activation.hostAct_eq (x i)

end Cert.ReferenceIdeal.RefValue

end
-- ==== Proof.lean ====
/-
  The kernel and its reference compute one function.

  Both programs take x : f32[16, 2048, 4096] and return, entry by entry,

      act a = tanh (a · σ(a)) + σ(a),     σ(a) = 1 / (1 + e^(-a)).

  The kernel flattens x to 32768 rows of 4096, applies `act` block by block — 128 blocks of 256 rows, each read and
  written at the same place — and restores the shape; its result is `act` of x entry by entry at any float instance
  (Proof/RegionValue.lean). The reference applies the same chain to the whole array, with σ spelled as negate,
  exponential, add 1, divide 1 by the sum; on the extended reals that spelling is σ by definition, the float word 1.0 is
  the number 1 and the two tanh's are one function, so its result is `act` of x entry by entry too (Proof/Activation.lean,
  Proof/RefValue.lean). No step uses that the inputs are finite: the equality holds at infinite entries as well, so the
  precondition is never opened.

  The idealized kernel is the kernel's own text read on the extended reals (no operation was rewritten), so there is
  nothing to preserve; each program's frame — it terminates, faults nowhere, leaves its argument as it was — is its
  generated frame, the reference's being its generated run with the result dropped.
-/
import proofs.«158531_j58866821759535_2_alg».proof.Defs
import proofs.«158531_j58866821759535_2_alg».proof.Proof.Gen.Kernel
import proofs.«158531_j58866821759535_2_alg».proof.Proof.Gen.Kernel.Frame
import proofs.«158531_j58866821759535_2_alg».proof.Proof.Gen.KernelIdeal
import proofs.«158531_j58866821759535_2_alg».proof.Proof.Gen.KernelIdeal.Frame
import proofs.«158531_j58866821759535_2_alg».proof.Proof.Gen.ReferenceIdeal
import proofs.«158531_j58866821759535_2_alg».proof.Proof.Gen.ReferenceIdeal.Run
import proofs.«158531_j58866821759535_2_alg».proof.Proof.Gen.ReferenceIdeal.Read
import proofs.«158531_j58866821759535_2_alg».proof.Proof.Gen.Pre_finite_inputs
import proofs.«158531_j58866821759535_2_alg».proof.Proof.RegionValue
import proofs.«158531_j58866821759535_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x both programs end with `act` of x, entry by entry: the kernel by its run, the
    reference by its run read at an index, the argument of the one rewritten to the other's. -/
theorem algebraic : Cert.algebraic_KernelIdeal_ReferenceIdeal := by
  intro m ρ m' ρ' _ hagree
  refine ⟨fun c => Cert.KernelIdeal.RegionValue.mapAct (F := Ideal) (m ((c.tc : Thread Cert.KernelIdeal.nD Cert.KernelIdeal.τ).loc Cert.KernelIdeal.main_arg0)),
    Cert.KernelIdeal.RegionValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
